-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S50000x256 : Shape := ⟨2, ![50000, 256]⟩
abbrev S256x128 : Shape := ⟨2, ![256, 128]⟩
abbrev S128x64 : Shape := ⟨2, ![128, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : IVec S2x600000 32) (main_arg1 : FVec F S50000x256 .f32) (main_arg2 : FVec F S50000x256 .f32) (main_arg3 : FVec F S256x128 .f32) (main_arg4 : FVec F S128x64 .f32) : IVec S_ 1 :=
  let main_v0 : FVec F S50000x256 .f32 := Host.absf main_arg1
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S2x600000 : Shape := ⟨2, ![2, 600000]⟩
abbrev S50000x256 : Shape := ⟨2, ![50000, 256]⟩
abbrev S256x128 : Shape := ⟨2, ![256, 128]⟩
abbrev S128x64 : Shape := ⟨2, ![128, 64]⟩
abbrev S1x600000 : Shape := ⟨2, ![1, 600000]⟩
abbrev S600000 : Shape := ⟨1, ![600000]⟩
abbrev S_ : Shape := ⟨0, ![]⟩
abbrev S100000 : Shape := ⟨1, ![100000]⟩
abbrev S700000 : Shape := ⟨1, ![700000]⟩
abbrev S700000x1 : Shape := ⟨2, ![700000, 1]⟩
abbrev S100000x256 : Shape := ⟨2, ![100000, 256]⟩
abbrev S100000x128 : Shape := ⟨2, ![100000, 128]⟩
abbrev S5000x256 : Shape := ⟨2, ![5000, 256]⟩
abbrev S5000x128 : Shape := ⟨2, ![5000, 128]⟩
abbrev S700000x128 : Shape := ⟨2, ![700000, 128]⟩
abbrev S50000x128 : Shape := ⟨2, ![50000, 128]⟩
abbrev S100000x64 : Shape := ⟨2, ![100000, 64]⟩
abbrev S5000x64 : Shape := ⟨2, ![5000, 64]⟩
abbrev S700000x64 : Shape := ⟨2, ![700000, 64]⟩
abbrev S50000x64 : Shape := ⟨2, ![50000, 64]⟩

abbrev nBuf : Space → Nat
  | .hbm => 91
  | .vmem => 10
  | .smem => 0
  | _ => 0

abbrev bufTy : (tb : Table) → Fin (tcTables nBuf tb) → BufTy
  | .hbm, ⟨0, _⟩ => ⟨S2x600000, .i32⟩
  | .hbm, ⟨1, _⟩ => ⟨S50000x256, .f32⟩
  | .hbm, ⟨2, _⟩ => ⟨S50000x256, .f32⟩
  | .hbm, ⟨3, _⟩ => ⟨S256x128, .f32⟩
  | .hbm, ⟨4, _⟩ => ⟨S128x64, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S100000, .i32⟩
  | .hbm, ⟨13, _⟩ => ⟨S700000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000, .f32⟩
  | .hbm, ⟨38, _⟩ => ⟨S_, .i32⟩
  | .hbm, ⟨39, _⟩ => ⟨S700000, .i32⟩
  | .hbm, ⟨40, _⟩ => ⟨S700000, .i1⟩
  | .hbm, ⟨41, _⟩ => ⟨S_, .i32⟩
  | .hbm, ⟨42, _⟩ => ⟨S700000, .i32⟩
  | .hbm, ⟨43, _⟩ => ⟨S700000, .i32⟩
  | .hbm, ⟨44, _⟩ => ⟨S700000, .i32⟩
  | .hbm, ⟨45, _⟩ => ⟨S700000x1, .i32⟩
  | .hbm, ⟨46, _⟩ => ⟨S700000, .f32⟩
  | .hbm, ⟨47, _⟩ => ⟨S700000, .f32⟩
  | .hbm, ⟨48, _⟩ => ⟨S100000x256, .f32⟩
  | .hbm, ⟨49, _⟩ => ⟨S100000x128, .f32⟩
  | .hbm, ⟨50, _⟩ => ⟨S_, .i32⟩
  | .hbm, ⟨51, _⟩ => ⟨S700000, .i32⟩
  | .hbm, ⟨52, _⟩ => ⟨S700000, .i1⟩
  | .hbm, ⟨53, _⟩ => ⟨S_, .i32⟩
  | .hbm, ⟨54, _⟩ => ⟨S700000, .i32⟩
  | .hbm, ⟨55, _⟩ => ⟨S700000, .i32⟩
  | .hbm, ⟨56, _⟩ => ⟨S700000, .i32⟩
  | .hbm, ⟨57, _⟩ => ⟨S700000x1, .i32⟩
  | .hbm, ⟨58, _⟩ => ⟨S700000x128, .f32⟩
  | .hbm, ⟨59, _⟩ => ⟨S700000x1, .f32⟩
  | .hbm, ⟨60, _⟩ => ⟨S700000x128, .f32⟩
  | .hbm, ⟨61, _⟩ => ⟨S700000x128, .f32⟩
  | .hbm, ⟨62, _⟩ => ⟨S_, .f32⟩
  | .hbm, ⟨63, _⟩ => ⟨S100000x128, .f32⟩
  | .hbm, ⟨64, _⟩ => ⟨S700000x1, .i32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S50000x128, .f32⟩
  | .hbm, ⟨70, _⟩ => ⟨S50000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S700000, .i32⟩
  | .hbm, ⟨75, _⟩ => ⟨S700000, .i1⟩
  | .hbm, ⟨76, _⟩ => ⟨S_, .i32⟩
  | .hbm, ⟨77, _⟩ => ⟨S700000, .i32⟩
  | .hbm, ⟨78, _⟩ => ⟨S700000, .i32⟩
  | .hbm, ⟨79, _⟩ => ⟨S700000, .i32⟩
  | .hbm, ⟨80, _⟩ => ⟨S700000x1, .i32⟩
  | .hbm, ⟨81, _⟩ => ⟨S700000x64, .f32⟩
  | .hbm, ⟨82, _⟩ => ⟨S700000x1, .f32⟩
  | .hbm, ⟨83, _⟩ => ⟨S700000x64, .f32⟩
  | .hbm, ⟨84, _⟩ => ⟨S700000x64, .f32⟩
  | .hbm, ⟨85, _⟩ => ⟨S_, .f32⟩
  | .hbm, ⟨86, _⟩ => ⟨S100000x64, .f32⟩
  | .hbm, ⟨87, _⟩ => ⟨S700000x1, .i32⟩
  | .hbm, ⟨88, _⟩ => ⟨S100000x64, .f32⟩
  | .hbm, ⟨89, _⟩ => ⟨S50000x64, .f32⟩
  | .hbm, ⟨90, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  concatenates_S50000x256_S50000x256_S100000x256_d0 : Shape.Concatenates [S50000x256, S50000x256] S100000x256 0
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S100000x128_S50000x128_0_0 : S100000x128.Slices ![0, 0] S50000x128
  slices_S100000x128_S50000x128_50000_0 : S100000x128.Slices ![50000, 0] S50000x128
  concatenates_S50000x128_S50000x128_S100000x128_d0 : Shape.Concatenates [S50000x128, S50000x128] S100000x128 0
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  slices_S100000x64_S50000x64_0_0 : S100000x64.Slices ![0, 0] S50000x64
  slices_S100000x64_S50000x64_50000_0 : S100000x64.Slices ![50000, 0] S50000x64
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x256_S256x128_S5000x128_1_0_0_1_n_n_wf : DotDims.WF S5000x256 S256x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x64_S5000x64_1_0_0_1_n_n_wf : DotDims.WF S5000x128 S128x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

abbrev win0_0 : Pipeline.Window sig grid0 :=
  Pipeline.Window.ofSpec (Memref.whole main_v32) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x600000 : Shape := ⟨2, ![2, 600000]⟩
abbrev S50000x256 : Shape := ⟨2, ![50000, 256]⟩
abbrev S256x128 : Shape := ⟨2, ![256, 128]⟩
abbrev S128x64 : Shape := ⟨2, ![128, 64]⟩
abbrev S1x600000 : Shape := ⟨2, ![1, 600000]⟩
abbrev S600000 : Shape := ⟨1, ![600000]⟩
abbrev S_ : Shape := ⟨0, ![]⟩
abbrev S100000x256 : Shape := ⟨2, ![100000, 256]⟩
abbrev S100000x128 : Shape := ⟨2, ![100000, 128]⟩
abbrev S100000 : Shape := ⟨1, ![100000]⟩
abbrev S700000 : Shape := ⟨1, ![700000]⟩
abbrev S700000x1 : Shape := ⟨2, ![700000, 1]⟩
abbrev S700000x128 : Shape := ⟨2, ![700000, 128]⟩
abbrev S50000x128 : Shape := ⟨2, ![50000, 128]⟩
abbrev S100000x64 : Shape := ⟨2, ![100000, 64]⟩
abbrev S700000x64 : Shape := ⟨2, ![700000, 64]⟩
abbrev S50000x64 : Shape := ⟨2, ![50000, 64]⟩

abbrev nBuf : Space → Nat
  | .hbm => 127
  | .vmem => 0
  | .smem => 0
  | _ => 0

abbrev bufTy : (tb : Table) → Fin (tcTables nBuf tb) → BufTy
  | .hbm, ⟨0, _⟩ => ⟨S2x600000, .i32⟩
  | .hbm, ⟨1, _⟩ => ⟨S50000x256, .f32⟩
  | .hbm, ⟨2, _⟩ => ⟨S50000x256, .f32⟩
  | .hbm, ⟨3, _⟩ => ⟨S256x128, .f32⟩
  | .hbm, ⟨4, _⟩ => ⟨S128x64, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S100000x256, .f32⟩
  | .hbm, ⟨13, _⟩ => ⟨S100000x128, .f32⟩
  | .hbm, ⟨14, _⟩ => ⟨S100000, .i32⟩
  | .hbm, ⟨15, _⟩ => ⟨S700000, .i32⟩
  | .hbm, ⟨16, _⟩ => ⟨S700000, .i32⟩
  | .hbm, ⟨17, _⟩ => ⟨S_, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000, .f32⟩
  | .hbm, ⟨40, _⟩ => ⟨S_, .i32⟩
  | .hbm, ⟨41, _⟩ => ⟨S700000, .i32⟩
  | .hbm, ⟨42, _⟩ => ⟨S700000, .i1⟩
  | .hbm, ⟨43, _⟩ => ⟨S_, .i32⟩
  | .hbm, ⟨44, _⟩ => ⟨S700000, .i32⟩
  | .hbm, ⟨45, _⟩ => ⟨S700000, .i32⟩
  | .hbm, ⟨46, _⟩ => ⟨S700000, .i32⟩
  | .hbm, ⟨47, _⟩ => ⟨S700000x1, .i32⟩
  | .hbm, ⟨48, _⟩ => ⟨S700000, .f32⟩
  | .hbm, ⟨49, _⟩ => ⟨S700000, .f32⟩
  | .hbm, ⟨50, _⟩ => ⟨S_, .i32⟩
  | .hbm, ⟨51, _⟩ => ⟨S700000, .i32⟩
  | .hbm, ⟨52, _⟩ => ⟨S700000, .i1⟩
  | .hbm, ⟨53, _⟩ => ⟨S_, .i32⟩
  | .hbm, ⟨54, _⟩ => ⟨S700000, .i32⟩
  | .hbm, ⟨55, _⟩ => ⟨S700000, .i32⟩
  | .hbm, ⟨56, _⟩ => ⟨S700000, .i32⟩
  | .hbm, ⟨57, _⟩ => ⟨S700000x1, .i32⟩
  | .hbm, ⟨58, _⟩ => ⟨S700000x128, .f32⟩
  | .hbm, ⟨59, _⟩ => ⟨S700000x1, .f32⟩
  | .hbm, ⟨60, _⟩ => ⟨S700000x128, .f32⟩
  | .hbm, ⟨61, _⟩ => ⟨S700000x128, .f32⟩
  | .hbm, ⟨62, _⟩ => ⟨S_, .f32⟩
  | .hbm, ⟨63, _⟩ => ⟨S100000x128, .f32⟩
  | .hbm, ⟨64, _⟩ => ⟨S700000x1, .i32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S50000x128, .f32⟩
  | .hbm, ⟨70, _⟩ => ⟨S50000x128, .f32⟩
  | .hbm, ⟨71, _⟩ => ⟨S100000x128, .f32⟩
  | .hbm, ⟨72, _⟩ => ⟨S100000x64, .f32⟩
  | .hbm, ⟨73, _⟩ => ⟨S100000, .i32⟩
  | .hbm, ⟨74, _⟩ => ⟨S700000, .i32⟩
  | .hbm, ⟨75, _⟩ => ⟨S700000, .i32⟩
  | .hbm, ⟨76, _⟩ => ⟨S_, .f32⟩
  | .hbm, ⟨77, _⟩ => ⟨S700000, .f32⟩
  | .hbm, ⟨78, _⟩ => ⟨S_, .f32⟩
  | .hbm, ⟨79, _⟩ => ⟨S100000, .f32⟩
  | .hbm, ⟨80, _⟩ => ⟨S700000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .i1⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S700000, .i32⟩
  | .hbm, ⟨92, _⟩ => ⟨S700000, .i1⟩
  | .hbm, ⟨93, _⟩ => ⟨S_, .i32⟩
  | .hbm, ⟨94, _⟩ => ⟨S700000, .i32⟩
  | .hbm, ⟨95, _⟩ => ⟨S700000, .i32⟩
  | .hbm, ⟨96, _⟩ => ⟨S700000, .i32⟩
  | .hbm, ⟨97, _⟩ => ⟨S700000x1, .i32⟩
  | .hbm, ⟨98, _⟩ => ⟨S700000, .f32⟩
  | .hbm, ⟨99, _⟩ => ⟨S_, .i32⟩
  | .hbm, ⟨100, _⟩ => ⟨S700000, .i32⟩
  | .hbm, ⟨101, _⟩ => ⟨S700000, .i1⟩
  | .hbm, ⟨102, _⟩ => ⟨S_, .i32⟩
  | .hbm, ⟨103, _⟩ => ⟨S700000, .i32⟩
  | .hbm, ⟨104, _⟩ => ⟨S700000, .i32⟩
  | .hbm, ⟨105, _⟩ => ⟨S700000, .i32⟩
  | .hbm, ⟨106, _⟩ => ⟨S700000x1, .i32⟩
  | .hbm, ⟨107, _⟩ => ⟨S700000, .f32⟩
  | .hbm, ⟨108, _⟩ => ⟨S700000, .f32⟩
  | .hbm, ⟨109, _⟩ => ⟨S_, .i32⟩
  | .hbm, ⟨110, _⟩ => ⟨S700000, .i32⟩
  | .hbm, ⟨111, _⟩ => ⟨S700000, .i1⟩
  | .hbm, ⟨112, _⟩ => ⟨S_, .i32⟩
  | .hbm, ⟨113, _⟩ => ⟨S700000, .i32⟩
  | .hbm, ⟨114, _⟩ => ⟨S700000, .i32⟩
  | .hbm, ⟨115, _⟩ => ⟨S700000, .i32⟩
  | .hbm, ⟨116, _⟩ => ⟨S700000x1, .i32⟩
  | .hbm, ⟨117, _⟩ => ⟨S700000x64, .f32⟩
  | .hbm, ⟨118, _⟩ => ⟨S700000x1, .f32⟩
  | .hbm, ⟨119, _⟩ => ⟨S700000x64, .f32⟩
  | .hbm, ⟨120, _⟩ => ⟨S700000x64, .f32⟩
  | .hbm, ⟨121, _⟩ => ⟨S_, .f32⟩
  | .hbm, ⟨122, _⟩ => ⟨S100000x64, .f32⟩
  | .hbm, ⟨123, _⟩ => ⟨S700000x1, .i32⟩
  | .hbm, ⟨124, _⟩ => ⟨S100000x64, .f32⟩
  | .hbm, ⟨125, _⟩ => ⟨S50000x64, .f32⟩
  | .hbm, ⟨126, _⟩ => ⟨S50000x64, .f32⟩
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_18 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  concatenates_S50000x256_S50000x256_S100000x256_d0 : Shape.Concatenates [S50000x256, S50000x256] S100000x256 0
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S100000x128_S50000x128_0_0 : S100000x128.Slices ![0, 0] S50000x128
  slices_S100000x128_S50000x128_50000_0 : S100000x128.Slices ![50000, 0] S50000x128
  concatenates_S50000x128_S50000x128_S100000x128_d0 : Shape.Concatenates [S50000x128, S50000x128] S100000x128 0
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  slices_S100000x64_S50000x64_0_0 : S100000x64.Slices ![0, 0] S50000x64
  slices_S100000x64_S50000x64_50000_0 : S100000x64.Slices ![50000, 0] S50000x64
  dot_S100000x256_S256x128_S100000x128_1_0_0_1_n_n_wf : DotDims.WF S100000x256 S256x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf

class Facts : Prop extends Facts₀ where

variable [Facts]
-- ==== Proof.KernelRun.lean ====
/-
  The kernel's run with its two results named. Every weakly fair execution of the kernel's @main terminates without a
  fault, and in the final state the two result arrays hold what the chain of segments leaves there — the host
  operations before, between and after the two dense regions applied, in order, to the launch memory, each region's
  output array at what its 20 write-backs leave — while the five argument arrays are as launched. What those contents
  ARE, as functions of the arguments, is read off that chain elsewhere; here only the run is stated.
-/
import proofs.«153630_j69526930588080_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the results at the last segment boundary's contents, the arguments unchanged. -/
theorem run : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       h c _ (mem_uc main_v66 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.Results

end
-- ==== Proof.Graph.lean ====
/-
  The graph-convolution layer both programs apply around their dense products, written once as functions of arrays.
  The graph has 100000 nodes — the 50000 source nodes, then the 50000 target nodes — and 700000 edges: the 600000 given
  ones, whose target index is shifted by 50000 into the second half, followed by one self loop per node. With deg(v) the
  number of edges into v (self loop included) and dinv(v) = deg(v)^(-1/2) where deg(v) > 0, else 0, edge e = (s → d)
  carries the weight norm(e) = dinv(s) · dinv(d), and a layer sends node features h to
      out[v] = Σ_{e : d(e) = v} h[s(e)] · norm(e).
  A negative index is read from the end of the axis (index + 100000), as jnp's indexing does.
  The proofs that use this show that each program applies these same functions, in the same order, to equal arrays; the
  sums over edges themselves are never evaluated.
-/
import proofs.«153630_j69526930588080_1_alg».proof.ReferenceIdeal
import proofs.«153630_j69526930588080_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- Edge sources: row 0 of the edge array, then the nodes 0 … 99999 (the self loops). -/
def srcList (e : (⟨S2x600000, .i32⟩ : BufTy).Contents (Elt F)) : (⟨S700000, .i32⟩ : BufTy).Contents (Elt F) :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- Edge targets: row 1 of the edge array shifted by 50000 into the target half, then the nodes 0 … 99999. -/
def dstList (e : (⟨S2x600000, .i32⟩ : BufTy).Contents (Elt F)) : (⟨S700000, .i32⟩ : BufTy).Contents (Elt F) :=
  concatenate S700000 0 [⟨S600000, (addi (shapeCast _ (extractStridedSlice S1x600000 ![1, 0] e slices_S2x600000_S1x600000_1_0) shapeCasts_S1x600000_S600000) (broadcastInDim S600000 ![] bcast_S_S600000 (constantI S_ 32 50000#32)))⟩, ⟨S100000, (iotaInDim S100000 32 0)⟩] concatenates_S600000_S100000_S700000_d0

/-- A list of node indices as a column of gather indices, a negative index counted from the end of the node axis. -/
def nodeIdx (s : (⟨S700000, .i32⟩ : BufTy).Contents (Elt F)) : (⟨S700000x1, .i32⟩ : BufTy).Contents (Elt F) :=
  broadcastInDim S700000x1 ![0] bcast_S700000_S700000x1_0 (select (cmpi .slt s (broadcastInDim S700000 ![] bcast_S_S700000 (constantI S_ 32 0#32))) (addi s (broadcastInDim S700000 ![] bcast_S_S700000 (constantI S_ 32 100000#32))) s)

/-- deg(v): a one added at d(e) for every edge e, starting from zero. -/
def degree (d : (⟨S700000, .i32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 d) (broadcastInDim S700000 ![] bcast_S_S700000 (constant S_ .f32 0x3F800000#32))

/-- Where the degree is positive. -/
def positive (g : (⟨S100000, .f32⟩ : BufTy).Contents (Elt F)) : (⟨S100000, .i1⟩ : BufTy).Contents (Elt F) :=
  cmpf .ogt g (broadcastInDim S100000 ![] bcast_S_S100000 (constant S_ .f32 0x00000000#32))

/-- deg^(-1/2), entry by entry. -/
def rsqrtOf (g : (⟨S100000, .f32⟩ : BufTy).Contents (Elt F)) : (⟨S100000, .f32⟩ : BufTy).Contents (Elt F) :=
  Host.rsqrt g

/-- The scalar zero. -/
def zeroScalar : (⟨S_, .f32⟩ : BufTy).Contents (Elt F) :=
  constant S_ .f32 0x00000000#32

/-- jnp.where against a scalar: t where the condition holds, the scalar z elsewhere. -/
def whereSel (k : (⟨S100000, .i1⟩ : BufTy).Contents (Elt F)) (t : (⟨S100000, .f32⟩ : BufTy).Contents (Elt F)) (z : (⟨S_, .f32⟩ : BufTy).Contents (Elt F)) :
    (⟨S100000, .f32⟩ : BufTy).Contents (Elt F) :=
  select k t (broadcastInDim S100000 ![] bcast_S_S100000 (id z))

/-- deg ↦ deg^(-1/2) where deg > 0, and 0 elsewhere. -/
def invSqrtOf (g : (⟨S100000, .f32⟩ : BufTy).Contents (Elt F)) : (⟨S100000, .f32⟩ : BufTy).Contents (Elt F) :=
  whereSel (F := F) (positive (F := F) g) (rsqrtOf (F := F) g) (zeroScalar (F := F))

/-- dinv(v) = deg(v)^(-1/2) where deg(v) > 0, and 0 elsewhere. -/
def invSqrtDegree (d : (⟨S700000, .i32⟩ : BufTy).Contents (Elt F)) : (⟨S100000, .f32⟩ : BufTy).Contents (Elt F) :=
  invSqrtOf (F := F) (degree (F := F) d)

/-- The edge weights from a given dinv: dinv at the source times dinv at the target. -/
def edgeNormFrom (q : (⟨S100000, .f32⟩ : BufTy).Contents (Elt F)) (s d : (⟨S700000, .i32⟩ : BufTy).Contents (Elt F)) : (⟨S700000, .f32⟩ : BufTy).Contents (Elt F) :=
  mulf (Host.gather gather_S100000_S700000x1_S700000_n_0_n_n_0_1_1 q (nodeIdx (F := F) s)) (Host.gather gather_S100000_S700000x1_S700000_n_0_n_n_0_1_1 q (nodeIdx (F := F) d))

/-- norm(e) = dinv(s(e)) · dinv(d(e)). -/
def edgeNorm (s d : (⟨S700000, .i32⟩ : BufTy).Contents (Elt F)) : (⟨S700000, .f32⟩ : BufTy).Contents (Elt F) :=
  edgeNormFrom (F := F) (invSqrtDegree (F := F) d) s d

/-- The two halves of the node features, one above the other. -/
def stack (a b : (⟨S50000x256, .f32⟩ : BufTy).Contents (Elt F)) : (⟨S100000x256, .f32⟩ : BufTy).Contents (Elt F) :=
  concatenate S100000x256 0 [⟨S50000x256, (a)⟩, ⟨S50000x256, (b)⟩] concatenates_S50000x256_S50000x256_S100000x256_d0

/-- out[v] = Σ_{e : d(e) = v} h[s(e)] · norm(e), on 128 features. -/
def aggregate128 (s d : (⟨S700000, .i32⟩ : BufTy).Contents (Elt F)) (w : (⟨S700000, .f32⟩ : BufTy).Contents (Elt F))
    (h : (⟨S100000x128, .f32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d) (mulf (Host.gather gather_S100000x128_S700000x1_S700000x128_1_0_n_n_0_1_1128 h (nodeIdx (F := F) s)) (broadcastInDim S700000x128 ![0, 1] bcast_S700000x1_S700000x128_0_1 (broadcastInDim S700000x1 ![0] bcast_S700000_S700000x1_0 w)))

/-- The same on 64 features. -/
def aggregate64 (s d : (⟨S700000, .i32⟩ : BufTy).Contents (Elt F)) (w : (⟨S700000, .f32⟩ : BufTy).Contents (Elt F))
    (h : (⟨S100000x64, .f32⟩ : BufTy).Contents (Elt F)) : (⟨S100000x64, .f32⟩ : BufTy).Contents (Elt F) :=
  Host.scatterAdd scatter_S100000x64_S700000x1_S700000x64_1_0_0_1 (broadcastInDim S100000x64 ![] bcast_S_S100000x64 (constant S_ .f32 0x00000000#32)) (broadcastInDim S700000x1 ![0] bcast_S700000_S700000x1_0 d) (mulf (Host.gather gather_S100000x64_S700000x1_S700000x64_1_0_n_n_0_1_164 h (nodeIdx (F := F) s)) (broadcastInDim S700000x64 ![0, 1] bcast_S700000x1_S700000x64_0_1 (broadcastInDim S700000x1 ![0] bcast_S700000_S700000x1_0 w)))

/-- max(y, 0), entry by entry. -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

/-- Cut into the source half and the target half and put back one above the other (the identity, as the programs spell it). -/
def restack (y : (⟨S100000x128, .f32⟩ : BufTy).Contents (Elt F)) : (⟨S100000x128, .f32⟩ : BufTy).Contents (Elt F) :=
  concatenate S100000x128 0 [⟨S50000x128, (extractStridedSlice S50000x128 ![0, 0] y slices_S100000x128_S50000x128_0_0)⟩, ⟨S50000x128, (extractStridedSlice S50000x128 ![50000, 0] y slices_S100000x128_S50000x128_50000_0)⟩] concatenates_S50000x128_S50000x128_S100000x128_d0

/-- The source nodes' rows of the last layer's output. -/
def sourceHalf (y : (⟨S100000x64, .f32⟩ : BufTy).Contents (Elt F)) : (⟨S50000x64, .f32⟩ : BufTy).Contents (Elt F) :=
  extractStridedSlice S50000x64 ![0, 0] y slices_S100000x64_S50000x64_0_0

/-- The target nodes' rows of the last layer's output. -/
def targetHalf (y : (⟨S100000x64, .f32⟩ : BufTy).Contents (Elt F)) : (⟨S50000x64, .f32⟩ : BufTy).Contents (Elt F) :=
  extractStridedSlice S50000x64 ![50000, 0] y slices_S100000x64_S50000x64_50000_0

/-- The first layer: stacked features times the first weight, aggregated over the edges, rectified. -/
def hidden (e : (⟨S2x600000, .i32⟩ : BufTy).Contents (Elt F)) (a b : (⟨S50000x256, .f32⟩ : BufTy).Contents (Elt F))
    (w0 : (⟨S256x128, .f32⟩ : BufTy).Contents (Elt F)) : (⟨S100000x128, .f32⟩ : BufTy).Contents (Elt F) :=
  restack (F := F) (relu (F := F) (aggregate128 (F := F) (srcList (F := F) e) (dstList (F := F) e) (edgeNorm (F := F) (srcList (F := F) e) (dstList (F := F) e))
    (Host.dotGeneral dot_S100000x256_S256x128_S100000x128_1_0_0_1_n_n none (stack (F := F) a b) w0)))

/-- The second layer: the hidden features times the second weight, aggregated over the same edges. -/
def output (e : (⟨S2x600000, .i32⟩ : BufTy).Contents (Elt F)) (a b : (⟨S50000x256, .f32⟩ : BufTy).Contents (Elt F))
    (w0 : (⟨S256x128, .f32⟩ : BufTy).Contents (Elt F)) (w1 : (⟨S128x64, .f32⟩ : BufTy).Contents (Elt F)) : (⟨S100000x64, .f32⟩ : BufTy).Contents (Elt F) :=
  aggregate64 (F := F) (srcList (F := F) e) (dstList (F := F) e) (edgeNorm (F := F) (srcList (F := F) e) (dstList (F := F) e))
    (Host.dotGeneral dot_S100000x128_S128x64_S100000x64_1_0_0_1_n_n none (hidden (F := F) e a b w0) w1)

end Cert.Gcn

end
-- ==== Proof.Dense0.lean ====
/-
  Dense layer 0. The kernel walks the 100000 rows of its input array in 20 blocks of 5000 rows: at block t it loads rows
  5000·t … 5000·t + 4999 (all 256 columns) and the whole 256 × 128 weight, and stores their matrix product as the same rows of
  the output. Read on the extended reals the two roundings to bf16 are the identity and a product into a zero accumulator
  is the plain sum Σₖ x[r, k] · w[k, c]. Row r of a product depends on row r of x only, so the 20 blocks together are the
  product of the whole arrays — and that sum is, entry by entry, what the host's dot_general of the reference computes.
-/
import proofs.«153630_j69526930588080_1_alg».proof.Proof.Gen.KernelIdeal.Frame
import proofs.«153630_j69526930588080_1_alg».proof.ReferenceIdeal
import proofs.«153630_j69526930588080_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Dense0

open Idealize.ShloMosaic Idealize.ShloMosaic.TcCoe Idealize.SL.Sem
open Cert.KernelIdeal Cert.KernelIdeal.Gen
open Idealize.ShloMosaic.Pipeline (Dat)

/-! ## Which entries of the operands an entry of a rows-by-columns product reads -/

/-- In a block: entry (r, c) reads x[r, k] … -/
def blkRow (j : S5000x128.Idx) (k : Fin 256) : S5000x256.Idx := fun a => match a with
  | ⟨0, _⟩ => ⟨(j 0).val, (j 0).isLt⟩
  | ⟨1, _⟩ => ⟨k.val, k.isLt⟩
/-- … and w[k, c]. -/
def blkCol (j : S5000x128.Idx) (k : Fin 256) : S256x128.Idx := fun a => match a with
  | ⟨0, _⟩ => ⟨k.val, k.isLt⟩
  | ⟨1, _⟩ => ⟨(j 1).val, (j 1).isLt⟩
/-- In the whole array: entry (r, c) reads x[r, k] … -/
def atRow (i : S100000x128.Idx) (k : Fin 256) : S100000x256.Idx := fun a => match a with
  | ⟨0, _⟩ => ⟨(i 0).val, (i 0).isLt⟩
  | ⟨1, _⟩ => ⟨k.val, k.isLt⟩
/-- … and w[k, c]. -/
def atCol (i : S100000x128.Idx) (k : Fin 256) : S256x128.Idx := fun a => match a with
  | ⟨0, _⟩ => ⟨k.val, k.isLt⟩
  | ⟨1, _⟩ => ⟨(i 1).val, (i 1).isLt⟩

/-- The product of the whole arrays: entry (r, c) is Σₖ x[r, k] · w[k, c]. -/
def prod (x : (⟨S100000x256, .f32⟩ : BufTy).Contents (Elt Ideal)) (w : (⟨S256x128, .f32⟩ : BufTy).Contents (Elt Ideal)) :
    (⟨S100000x128, .f32⟩ : BufTy).Contents (Elt Ideal) :=
  fun i => ∑ k : Fin 256, x (atRow i k) * w (atCol i k)

/-! ## The block's product, entry by entry -/

theorem blk_lhs0 (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blk_lhs1 (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem blk_rhs0 (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem blk_rhs1 (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the body stores, at entry (r, c) of the block: Σₖ x[r, k] · w[k, c] of the two loaded blocks (the casts to bf16
    are the identity on the extended reals, the accumulator is zero). -/
theorem body_apply (x0 : Vec Ideal S5000x256 .f32) (x1 : Vec Ideal S256x128 .f32) (j : S5000x128.Idx) :
    k0_pay1 (F := Ideal) x0 x1 j = ∑ k : Fin 256, x0 (blkRow j k) * x1 (blkCol j k) := by
  unfold k0_pay1
  rw [shapeCast_self]
  refine (Ideal.matmul_constant_zero_apply dot_S5000x256_S256x128_S5000x128_1_0_0_1_n_n none _ _ j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = blkRow j k := funext fun a => Fin.ext (by
    match a with
    | ⟨0, _⟩ => exact blk_lhs0 _ _
    | ⟨1, _⟩ => exact (blk_lhs1 _ _).trans hk)
  have er : dot_S5000x256_S256x128_S5000x128_1_0_0_1_n_n.rhsIdx j ((ValueIdx.contrEquiv1 dot_S5000x256_S256x128_S5000x128_1_0_0_1_n_n 256 rfl rfl).symm k) = blkCol j k := funext fun a => Fin.ext (by
    match a with
    | ⟨0, _⟩ => exact (blk_rhs0 _ _).trans hk
    | ⟨1, _⟩ => exact blk_rhs1 _ _)
  rw [el, er]
  rfl

/-! ## The host's dot_general, entry by entry -/

theorem whole_lhs0 (i : S100000x128.Idx) (q : Cert.ReferenceIdeal.dot_S100000x256_S256x128_S100000x128_1_0_0_1_n_n.contr.Idx) : (Cert.ReferenceIdeal.dot_S100000x256_S256x128_S100000x128_1_0_0_1_n_n.lhsIdx i q 0).val = (i 0).val := by
  unfold DotDims.lhsIdx
  rw [dif_neg (show ¬(0 : Fin S100000x256.rank) ∈ Cert.ReferenceIdeal.dot_S100000x256_S256x128_S100000x128_1_0_0_1_n_n.lhsBatch by decide), dif_pos (show (0 : Fin S100000x256.rank) ∈ Cert.ReferenceIdeal.dot_S100000x256_S256x128_S100000x128_1_0_0_1_n_n.lhsNonContracting by decide)]
  rfl
theorem whole_lhs1 (i : S100000x128.Idx) (q : Cert.ReferenceIdeal.dot_S100000x256_S256x128_S100000x128_1_0_0_1_n_n.contr.Idx) : (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem whole_rhs0 (i : S100000x128.Idx) (q : Cert.ReferenceIdeal.dot_S100000x256_S256x128_S100000x128_1_0_0_1_n_n.contr.Idx) : (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem whole_rhs1 (i : S100000x128.Idx) (q : Cert.ReferenceIdeal.dot_S100000x256_S256x128_S100000x128_1_0_0_1_n_n.contr.Idx) : (Cert.ReferenceIdeal.dot_S100000x256_S256x128_S100000x128_1_0_0_1_n_n.rhsIdx i q 1).val = (i 1).val := by
  unfold DotDims.rhsIdx
  rw [dif_neg (show ¬(1 : Fin S256x128.rank) ∈ Cert.ReferenceIdeal.dot_S100000x256_S256x128_S100000x128_1_0_0_1_n_n.rhsBatch by decide), dif_pos (show (1 : Fin S256x128.rank) ∈ Cert.ReferenceIdeal.dot_S100000x256_S256x128_S100000x128_1_0_0_1_n_n.rhsNonContracting by decide)]
  rfl

/-- On the extended reals the host's dot_general of the whole arrays is `prod`. -/
theorem dot_eq_prod (x : (⟨S100000x256, .f32⟩ : BufTy).Contents (Elt Ideal)) (w : (⟨S256x128, .f32⟩ : BufTy).Contents (Elt Ideal)) :
    Host.dotGeneral (F := Ideal) (φ₁ := .f32) (φ₂ := .f32) Cert.ReferenceIdeal.dot_S100000x256_S256x128_S100000x128_1_0_0_1_n_n none x w = prod x w := by
  funext i
  unfold prod
  simp only [Host.dotGeneral]
  rw [Ideal.dotGeneral_apply, ← Equiv.sum_comp (ValueIdx.contrEquiv1 Cert.ReferenceIdeal.dot_S100000x256_S256x128_S100000x128_1_0_0_1_n_n 256 rfl rfl).symm]
  refine Finset.sum_congr rfl fun k _ => ?_
  have hk := ValueIdx.contrEquiv1_symm_val Cert.ReferenceIdeal.dot_S100000x256_S256x128_S100000x128_1_0_0_1_n_n 256 rfl rfl k
  have el : Cert.ReferenceIdeal.dot_S100000x256_S256x128_S100000x128_1_0_0_1_n_n.lhsIdx i ((ValueIdx.contrEquiv1 Cert.ReferenceIdeal.dot_S100000x256_S256x128_S100000x128_1_0_0_1_n_n 256 rfl rfl).symm k) = atRow i k := funext fun a => Fin.ext (by
    match a with
    | ⟨0, _⟩ => exact whole_lhs0 _ _
    | ⟨1, _⟩ => exact (whole_lhs1 _ _).trans hk)
  have er : Cert.ReferenceIdeal.dot_S100000x256_S256x128_S100000x128_1_0_0_1_n_n.rhsIdx i ((ValueIdx.contrEquiv1 Cert.ReferenceIdeal.dot_S100000x256_S256x128_S100000x128_1_0_0_1_n_n 256 rfl rfl).symm k) = atCol i k := funext fun a => Fin.ext (by
    match a with
    | ⟨0, _⟩ => exact (whole_rhs0 _ _).trans hk
    | ⟨1, _⟩ => exact whole_rhs1 _ _)
  rw [el, er]

/-! ## From the 20 blocks to the array -/

theorem hz : (![0, 0] : Fin 2 → Nat) = fun _ => 0 := funext fun a => by fin_cases a <;> rfl

/-- Where the blocks sit: at point t the input rows and the output rows are block t of their arrays, every column
    block and the weight's block are block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the arrays the region is entered with. -/
theorem flushed_eq (c : Dev nD) (t : Fin cfg0.N) :
    (dat0 V c).flushed 2 t = ((cfg0.win 2).blk t).view.read (Elt Ideal) (prod (V c main_v32) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  refine (body_apply (iblk0 V c 0 t) (iblk0 V c 1 t) j).trans ?_
  show _ = prod (V c main_v32) (V c main_arg3) (((cfg0.win 2).blk t).view.emb j)
  unfold prod
  refine Finset.sum_congr rfl fun k _ => ?_
  have h0 : iblk0 V c 0 t (blkRow j k) = V c main_v32 (atRow (((cfg0.win 2).blk t).view.emb j) k) := by
    show V c main_v32 (((cfg0.win 0).blk t).view.emb (blkRow j k)) = _
    refine congrArg (V c main_v32) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (blkCol j k) = V c main_arg3 (atCol (((cfg0.win 2).blk t).view.emb j) k) := by
    show V c main_arg3 (((cfg0.win 1).blk t).view.emb (blkCol j k)) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An entry of the output array is in point t's block iff its row is one of the 5000 rows of block t. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Every entry is written: row r lies in block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have hlt : (i 0).val / 5000 < cfg0.N := by show (i 0).val / 5000 < grid0.N; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- THE REGION'S OUTPUT ARRAY, for whatever contents the region is entered with: the host's dot_general of its input
    array and its weight. -/
theorem array_eq (c : Dev nD) :
    (dat0 V c).arrAt 2 cfg0.N = Host.dotGeneral (F := Ideal) (φ₁ := .f32) (φ₂ := .f32) Cert.ReferenceIdeal.dot_S100000x256_S256x128_S100000x128_1_0_0_1_n_n none (V c main_v32) (V c main_arg3) :=
  ((dat0 V c).arrAt_eq_of_cover 2 (prod (V c main_v32) (V c main_arg3)) (fun t _ => flushed_eq V c t) cover).trans
    (dot_eq_prod (V c main_v32) (V c main_arg3)).symm

end Cert.KernelIdeal.Dense0

end
-- ==== Proof.Dense1.lean ====
/-
  Dense layer 1. The kernel walks the 100000 rows of its input array in 20 blocks of 5000 rows: at block t it loads rows
  5000·t … 5000·t + 4999 (all 128 columns) and the whole 128 × 64 weight, and stores their matrix product as the same rows of
  the output. Read on the extended reals the two roundings to bf16 are the identity and a product into a zero accumulator
  is the plain sum Σₖ x[r, k] · w[k, c]. Row r of a product depends on row r of x only, so the 20 blocks together are the
  product of the whole arrays — and that sum is, entry by entry, what the host's dot_general of the reference computes.
-/
import proofs.«153630_j69526930588080_1_alg».proof.Proof.Gen.KernelIdeal.Frame
import proofs.«153630_j69526930588080_1_alg».proof.ReferenceIdeal
import proofs.«153630_j69526930588080_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Dense1

open Idealize.ShloMosaic Idealize.ShloMosaic.TcCoe Idealize.SL.Sem
open Cert.KernelIdeal Cert.KernelIdeal.Gen
open Idealize.ShloMosaic.Pipeline (Dat)

/-! ## Which entries of the operands an entry of a rows-by-columns product reads -/

/-- In a block: entry (r, c) reads x[r, k] … -/
def blkRow (j : S5000x64.Idx) (k : Fin 128) : S5000x128.Idx := fun a => match a with
  | ⟨0, _⟩ => ⟨(j 0).val, (j 0).isLt⟩
  | ⟨1, _⟩ => ⟨k.val, k.isLt⟩
/-- … and w[k, c]. -/
def blkCol (j : S5000x64.Idx) (k : Fin 128) : S128x64.Idx := fun a => match a with
  | ⟨0, _⟩ => ⟨k.val, k.isLt⟩
  | ⟨1, _⟩ => ⟨(j 1).val, (j 1).isLt⟩
/-- In the whole array: entry (r, c) reads x[r, k] … -/
def atRow (i : S100000x64.Idx) (k : Fin 128) : S100000x128.Idx := fun a => match a with
  | ⟨0, _⟩ => ⟨(i 0).val, (i 0).isLt⟩
  | ⟨1, _⟩ => ⟨k.val, k.isLt⟩
/-- … and w[k, c]. -/
def atCol (i : S100000x64.Idx) (k : Fin 128) : S128x64.Idx := fun a => match a with
  | ⟨0, _⟩ => ⟨k.val, k.isLt⟩
  | ⟨1, _⟩ => ⟨(i 1).val, (i 1).isLt⟩

/-- The product of the whole arrays: entry (r, c) is Σₖ x[r, k] · w[k, c]. -/
def prod (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (atRow i k) * w (atCol i k)

/-! ## The block's product, entry by entry -/

theorem blk_lhs0 (j : S5000x64.Idx) (q : dot_S5000x128_S128x64_S5000x64_1_0_0_1_n_n.contr.Idx) : (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk_lhs1 (j : S5000x64.Idx) (q : dot_S5000x128_S128x64_S5000x64_1_0_0_1_n_n.contr.Idx) : (dot_S5000x128_S128x64_S5000x64_1_0_0_1_n_n.lhsIdx j q 1).val = (q ⟨0, by decide⟩).val :=
  dot_S5000x128_S128x64_S5000x64_1_0_0_1_n_n.lhsIdx_val_of_single rfl j q
theorem blk_rhs0 (j : S5000x64.Idx) (q : dot_S5000x128_S128x64_S5000x64_1_0_0_1_n_n.contr.Idx) : (dot_S5000x128_S128x64_S5000x64_1_0_0_1_n_n.rhsIdx j q 0).val = (q ⟨0, by decide⟩).val :=
  dot_S5000x128_S128x64_S5000x64_1_0_0_1_n_n.rhsIdx_val_of_single rfl j q
theorem blk_rhs1 (j : S5000x64.Idx) (q : dot_S5000x128_S128x64_S5000x64_1_0_0_1_n_n.contr.Idx) : (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at entry (r, c) of the block: Σₖ x[r, k] · w[k, c] of the two loaded blocks (the casts to bf16
    are the identity on the extended reals, the accumulator is zero). -/
theorem body_apply (x0 : Vec Ideal S5000x128 .f32) (x1 : Vec Ideal S128x64 .f32) (j : S5000x64.Idx) :
    k1_pay1 (F := Ideal) x0 x1 j = ∑ k : Fin 128, x0 (blkRow j k) * x1 (blkCol j k) := by
  unfold k1_pay1
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = blkRow j k := funext fun a => Fin.ext (by
    match a with
    | ⟨0, _⟩ => exact blk_lhs0 _ _
    | ⟨1, _⟩ => exact (blk_lhs1 _ _).trans hk)
  have er : dot_S5000x128_S128x64_S5000x64_1_0_0_1_n_n.rhsIdx j ((ValueIdx.contrEquiv1 dot_S5000x128_S128x64_S5000x64_1_0_0_1_n_n 128 rfl rfl).symm k) = blkCol j k := funext fun a => Fin.ext (by
    match a with
    | ⟨0, _⟩ => exact (blk_rhs0 _ _).trans hk
    | ⟨1, _⟩ => exact blk_rhs1 _ _)
  rw [el, er]
  rfl

/-! ## The host's dot_general, entry by entry -/

theorem whole_lhs0 (i : S100000x64.Idx) (q : Cert.ReferenceIdeal.dot_S100000x128_S128x64_S100000x64_1_0_0_1_n_n.contr.Idx) : (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem whole_lhs1 (i : S100000x64.Idx) (q : Cert.ReferenceIdeal.dot_S100000x128_S128x64_S100000x64_1_0_0_1_n_n.contr.Idx) : (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem whole_rhs0 (i : S100000x64.Idx) (q : Cert.ReferenceIdeal.dot_S100000x128_S128x64_S100000x64_1_0_0_1_n_n.contr.Idx) : (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem whole_rhs1 (i : S100000x64.Idx) (q : Cert.ReferenceIdeal.dot_S100000x128_S128x64_S100000x64_1_0_0_1_n_n.contr.Idx) : (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- On the extended reals the host's dot_general of the whole arrays is `prod`. -/
theorem dot_eq_prod (x : (⟨S100000x128, .f32⟩ : BufTy).Contents (Elt Ideal)) (w : (⟨S128x64, .f32⟩ : BufTy).Contents (Elt Ideal)) :
    Host.dotGeneral (F := Ideal) (φ₁ := .f32) (φ₂ := .f32) Cert.ReferenceIdeal.dot_S100000x128_S128x64_S100000x64_1_0_0_1_n_n none x w = prod x w := by
  funext i
  unfold prod
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = atRow i k := funext fun a => Fin.ext (by
    match a with
    | ⟨0, _⟩ => exact whole_lhs0 _ _
    | ⟨1, _⟩ => exact (whole_lhs1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = atCol i k := funext fun a => Fin.ext (by
    match a with
    | ⟨0, _⟩ => exact (whole_rhs0 _ _).trans hk
    | ⟨1, _⟩ => exact whole_rhs1 _ _)
  rw [el, er]

/-! ## From the 20 blocks to the array -/

theorem hz : (![0, 0] : Fin 2 → Nat) = fun _ => 0 := funext fun a => by fin_cases a <;> rfl

/-- Where the blocks sit: at point t the input rows and the output rows are block t of their arrays, every column
    block and the weight's block are block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the product of the arrays the region is entered with. -/
theorem flushed_eq (c : Dev nD) (t : Fin cfg1.N) :
    (dat1 V c).flushed 2 t = ((cfg1.win 2).blk t).view.read (Elt Ideal) (prod (V c main_v50) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  refine (body_apply (iblk1 V c 0 t) (iblk1 V c 1 t) j).trans ?_
  show _ = prod (V c main_v50) (V c main_arg4) (((cfg1.win 2).blk t).view.emb j)
  unfold prod
  refine Finset.sum_congr rfl fun k _ => ?_
  have h0 : iblk1 V c 0 t (blkRow j k) = V c main_v50 (atRow (((cfg1.win 2).blk t).view.emb j) k) := by
    show V c main_v50 (((cfg1.win 0).blk t).view.emb (blkRow j k)) = _
    refine congrArg (V c main_v50) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (blkCol j k) = V c main_arg4 (atCol (((cfg1.win 2).blk t).view.emb j) k) := by
    show V c main_arg4 (((cfg1.win 1).blk t).view.emb (blkCol j k)) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  rw [h0, h1]

/-- An entry of the output array is in point t's block iff its row is one of the 5000 rows of block t. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v51).slice (win1_2.rect t)).set ↔ _
  rw [View.set_slice_whole, Rect.mem_set_unit]
  exact Iff.rfl

/-- Every entry is written: row r lies in block r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  have hlt : (i 0).val / 5000 < cfg1.N := by show (i 0).val / 5000 < grid1.N; omega
  obtain ⟨e0, e1, e2, e3, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 64 ≤ (i 1).val ∧ (i 1).val < win1_2.index ⟨(i 0).val / 5000, hlt⟩ (1 : Fin 2) * 64 + 64
    rw [e5]; omega

/-- THE REGION'S OUTPUT ARRAY, for whatever contents the region is entered with: the host's dot_general of its input
    array and its weight. -/
theorem array_eq (c : Dev nD) :
    (dat1 V c).arrAt 2 cfg1.N = Host.dotGeneral (F := Ideal) (φ₁ := .f32) (φ₂ := .f32) Cert.ReferenceIdeal.dot_S100000x128_S128x64_S100000x64_1_0_0_1_n_n none (V c main_v50) (V c main_arg4) :=
  ((dat1 V c).arrAt_eq_of_cover 2 (prod (V c main_v50) (V c main_arg4)) (fun t _ => flushed_eq V c t) cover).trans
    (dot_eq_prod (V c main_v50) (V c main_arg4)).symm

end Cert.KernelIdeal.Dense1

end
-- ==== Proof.KernelValue.lean ====
/-
  What the kernel's two result arrays hold, as functions of the five argument arrays. The contents at the last segment
  boundary are read backwards through the chain: the host operations after the second dense region are the 64-feature
  aggregation and the cut into halves; that region's output array is the product of what it is entered with; the host
  operations between the regions are the 128-feature aggregation, the rectification and the restacking; the first
  region's output array is again a product; and the host operations before it build the edge lists, the normalisation
  and the stacked features from the arguments. The edge lists and the normalisation are computed ONCE, before the
  first region, and every later segment only carries them along — no host operation or region writes them again.
  Each step is stated over the arrays the stretch reads, so the layer's functions are applied, never opened.
-/
import proofs.«153630_j69526930588080_1_alg».proof.Proof.Gen.KernelIdeal.Frame
import proofs.«153630_j69526930588080_1_alg».proof.Proof.Graph
import proofs.«153630_j69526930588080_1_alg».proof.Proof.Dense0
import proofs.«153630_j69526930588080_1_alg».proof.Proof.Dense1
import Idealize.ShloMosaic.Lib.StableHlo.Run

set_option maxRecDepth 16384

noncomputable section

namespace Cert.KernelIdeal.Layers

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the first region: the edge lists, the normalisation, the stacked features -/

theorem src3 : W3 m ρ c (Proc.devRef .tc main_v7) = Cert.Gcn.srcList (F := Ideal) (m ((c : Thread nD τ).loc main_arg0)) := by
  show after hostOps0_2 (after hostOps0_1 (after hostOps0 (W0 m ρ c))) (Proc.devRef .tc main_v7) = _
  simp only [hostOps0, hostOps0_1, hostOps0_2]
  after_results_simp
  rfl

theorem dst3 : W3 m ρ c (Proc.devRef .tc main_v8) = Cert.Gcn.dstList (F := Ideal) (m ((c : Thread nD τ).loc main_arg0)) := by
  show after hostOps0_2 (after hostOps0_1 (after hostOps0 (W0 m ρ c))) (Proc.devRef .tc main_v8) = _
  simp only [hostOps0, hostOps0_1, hostOps0_2]
  after_results_simp
  rfl

/-- Running two lines one after the other is running their concatenation. -/
theorem after_append (l₁ l₂ : List (HloOp τ sig (Elt Ideal))) (V : Valuation τ sig (Elt Ideal)) : after (l₁ ++ l₂) V = after l₂ (after l₁ V) := by
  induction l₁ generalizing V with
  | nil => rfl
  | cons op l ih => exact ih (op.result V)

/-- The first stretch, cut where both edge lists are complete: its first ten operations build them from the edge array,
    its other eleven build the degree, its comparison with zero and its inverse square root from the target list. -/
theorem split0 (V : Valuation τ sig (Elt Ideal)) : after hostOps0 V = after (hostOps0.drop 10) (after (hostOps0.take 10) V) := by
  rw [← after_append, List.take_append_drop]

theorem src1 (V : Valuation τ sig (Elt Ideal)) : after (hostOps0.take 10) V (Proc.devRef .tc main_v7) = Cert.Gcn.srcList (F := Ideal) (V (Proc.devRef .tc main_arg0)) := by
  simp only [hostOps0, List.take]
  after_results_simp
  rfl

theorem dst1 (V : Valuation τ sig (Elt Ideal)) : after (hostOps0.take 10) V (Proc.devRef .tc main_v8) = Cert.Gcn.dstList (F := Ideal) (V (Proc.devRef .tc main_arg0)) := by
  simp only [hostOps0, List.take]
  after_results_simp
  rfl

/-- From the target list to dinv, from any contents: the rest of the first stretch gives the degree's comparison with zero,
    its reciprocal square root and the zero scalar; the outlined `where` chooses between them. -/
theorem where_of (V : Valuation τ sig (Elt Ideal)) : after hostOps0_1 V (Proc.devRef .tc main_v16)
    = Cert.Gcn.whereSel (F := Ideal) (V (Proc.devRef .tc main_v14)) (V (Proc.devRef .tc main_v15)) (V (Proc.devRef .tc main_cst_2)) := by
  simp only [hostOps0_1]
  after_results_simp
  rfl

theorem positive_of (V : Valuation τ sig (Elt Ideal)) : after (hostOps0.drop 10) V (Proc.devRef .tc main_v14)
    = Cert.Gcn.positive (F := Ideal) (Cert.Gcn.degree (F := Ideal) (V (Proc.devRef .tc main_v8))) := by
  simp only [hostOps0, List.drop]
  after_results_simp
  rfl

theorem rsqrt_of (V : Valuation τ sig (Elt Ideal)) : after (hostOps0.drop 10) V (Proc.devRef .tc main_v15)
    = Cert.Gcn.rsqrtOf (F := Ideal) (Cert.Gcn.degree (F := Ideal) (V (Proc.devRef .tc main_v8))) := by
  simp only [hostOps0, List.drop]
  after_results_simp
  rfl

theorem zero_of (V : Valuation τ sig (Elt Ideal)) : after (hostOps0.drop 10) V (Proc.devRef .tc main_cst_2) = Cert.Gcn.zeroScalar (F := Ideal) := by
  simp only [hostOps0, List.drop]
  after_results_simp
  rfl

theorem dinv_of (V : Valuation τ sig (Elt Ideal)) : after hostOps0_1 (after (hostOps0.drop 10) V) (Proc.devRef .tc main_v16)
    = Cert.Gcn.invSqrtDegree (F := Ideal) (V (Proc.devRef .tc main_v8)) := by
  refine (where_of (after (hostOps0.drop 10) V)).trans ?_
  rw [positive_of, rsqrt_of, zero_of]
  rfl

theorem src_kept (V : Valuation τ sig (Elt Ideal)) : after hostOps0_1 (after (hostOps0.drop 10) V) (Proc.devRef .tc main_v7) = V (Proc.devRef .tc main_v7) := by
  simp only [hostOps0, hostOps0_1, List.drop]
  after_results_simp

theorem dst_kept (V : Valuation τ sig (Elt Ideal)) : after hostOps0_1 (after (hostOps0.drop 10) V) (Proc.devRef .tc main_v8) = V (Proc.devRef .tc main_v8) := by
  simp only [hostOps0, hostOps0_1, List.drop]
  after_results_simp

/-- The third stretch, from any contents: the weight of edge e is dinv at its source times dinv at its target. -/
theorem norm_of (V : Valuation τ sig (Elt Ideal)) : after hostOps0_2 V (Proc.devRef .tc main_v31)
    = Cert.Gcn.edgeNormFrom (F := Ideal) (V (Proc.devRef .tc main_v16)) (V (Proc.devRef .tc main_v7)) (V (Proc.devRef .tc main_v8)) := by
  simp only [hostOps0_2]
  after_results_simp
  rfl

theorem norm3 : W3 m ρ c (Proc.devRef .tc main_v31)
    = Cert.Gcn.edgeNorm (F := Ideal) (Cert.Gcn.srcList (F := Ideal) (m ((c : Thread nD τ).loc main_arg0))) (Cert.Gcn.dstList (F := Ideal) (m ((c : Thread nD τ).loc main_arg0))) := by
  refine (norm_of (W2 m ρ c)).trans ?_
  show Cert.Gcn.edgeNormFrom (F := Ideal) (after hostOps0_1 (after hostOps0 (W0 m ρ c)) (Proc.devRef .tc main_v16))
      (after hostOps0_1 (after hostOps0 (W0 m ρ c)) (Proc.devRef .tc main_v7)) (after hostOps0_1 (after hostOps0 (W0 m ρ c)) (Proc.devRef .tc main_v8)) = _
  rw [split0, dinv_of, src_kept, dst_kept, src1, dst1]
  rfl

theorem feat3 : W3 m ρ c (Proc.devRef .tc main_v32)
    = Cert.Gcn.stack (F := Ideal) (m ((c : Thread nD τ).loc main_arg1)) (m ((c : Thread nD τ).loc main_arg2)) := by
  show after hostOps0_2 (after hostOps0_1 (after hostOps0 (W0 m ρ c))) (Proc.devRef .tc main_v32) = _
  simp only [hostOps0, hostOps0_1, hostOps0_2]
  after_results_simp
  rfl

theorem wgt0_3 : W3 m ρ c (Proc.devRef .tc main_arg3) = m ((c : Thread nD τ).loc main_arg3) := by
  show after hostOps0_2 (after hostOps0_1 (after hostOps0 (W0 m ρ c))) (Proc.devRef .tc main_arg3) = _
  simp only [hostOps0, hostOps0_1, hostOps0_2]
  after_results_simp

theorem wgt1_3 : W3 m ρ c (Proc.devRef .tc main_arg4) = m ((c : Thread nD τ).loc main_arg4) := by
  show after hostOps0_2 (after hostOps0_1 (after hostOps0 (W0 m ρ c))) (Proc.devRef .tc main_arg4) = _
  simp only [hostOps0, hostOps0_1, hostOps0_2]
  after_results_simp

/-! ## The first region: a product; everything else as it was -/

theorem dense4 : W4 m ρ c (Proc.devRef .tc main_v33)
    = Host.dotGeneral (F := Ideal) (φ₁ := .f32) (φ₂ := .f32) Cert.ReferenceIdeal.dot_S100000x256_S256x128_S100000x128_1_0_0_1_n_n none
        (Cert.Gcn.stack (F := Ideal) (m ((c : Thread nD τ).loc main_arg1)) (m ((c : Thread nD τ).loc main_arg2))) (m ((c : Thread nD τ).loc main_arg3)) := by
  refine (W4_arr m ρ c 2).trans ((Cert.KernelIdeal.Dense0.array_eq (V3 m ρ) c).trans ?_)
  show Host.dotGeneral (F := Ideal) (φ₁ := .f32) (φ₂ := .f32) Cert.ReferenceIdeal.dot_S100000x256_S256x128_S100000x128_1_0_0_1_n_n none (W3 m ρ c (Proc.devRef .tc main_v32)) (W3 m ρ c (Proc.devRef .tc main_arg3)) = _
  rw [feat3, wgt0_3]

theorem src4 : W4 m ρ c (Proc.devRef .tc main_v7) = W3 m ρ c (Proc.devRef .tc main_v7) := W4_of_ne m ρ c main_v7 (by decide)
theorem dst4 : W4 m ρ c (Proc.devRef .tc main_v8) = W3 m ρ c (Proc.devRef .tc main_v8) := W4_of_ne m ρ c main_v8 (by decide)
theorem norm4 : W4 m ρ c (Proc.devRef .tc main_v31) = W3 m ρ c (Proc.devRef .tc main_v31) := W4_of_ne m ρ c main_v31 (by decide)
theorem wgt1_4 : W4 m ρ c (Proc.devRef .tc main_arg4) = W3 m ρ c (Proc.devRef .tc main_arg4) := W4_of_ne m ρ c main_arg4 (by decide)

/-! ## Between the regions: aggregate over the edges, rectify, restack -/

/-- The first stretch after the first region, from any contents: the aggregation over the edges. -/
theorem aggregate_of (V : Valuation τ sig (Elt Ideal)) : after hostOps1 V (Proc.devRef .tc main_v46)
    = Cert.Gcn.aggregate128 (F := Ideal) (V (Proc.devRef .tc main_v7)) (V (Proc.devRef .tc main_v8)) (V (Proc.devRef .tc main_v31)) (V (Proc.devRef .tc main_v33)) := by
  simp only [hostOps1]
  after_results_simp
  rfl

/-- The outlined rectification, from any contents. -/
theorem relu_of (V : Valuation τ sig (Elt Ideal)) : after hostOps1_1 V (Proc.devRef .tc main_v47) = Cert.Gcn.relu (F := Ideal) (V (Proc.devRef .tc main_v46)) := by
  simp only [hostOps1_1]
  after_results_simp
  rfl

/-- The cut into halves and the restacking, from any contents. -/
theorem restack_of (V : Valuation τ sig (Elt Ideal)) : after hostOps1_2 V (Proc.devRef .tc main_v50) = Cert.Gcn.restack (F := Ideal) (V (Proc.devRef .tc main_v47)) := by
  simp only [hostOps1_2]
  after_results_simp
  rfl

theorem hidden7 : W7 m ρ c (Proc.devRef .tc main_v50)
    = Cert.Gcn.restack (F := Ideal) (Cert.Gcn.relu (F := Ideal) (Cert.Gcn.aggregate128 (F := Ideal) (W4 m ρ c (Proc.devRef .tc main_v7)) (W4 m ρ c (Proc.devRef .tc main_v8))
        (W4 m ρ c (Proc.devRef .tc main_v31)) (W4 m ρ c (Proc.devRef .tc main_v33)))) := by
  refine (restack_of (W6 m ρ c)).trans (congrArg (Cert.Gcn.restack (F := Ideal)) ?_)
  refine (relu_of (W5 m ρ c)).trans (congrArg (Cert.Gcn.relu (F := Ideal)) ?_)
  exact aggregate_of (W4 m ρ c)

theorem src7 : W7 m ρ c (Proc.devRef .tc main_v7) = W4 m ρ c (Proc.devRef .tc main_v7) := by
  show after hostOps1_2 (after hostOps1_1 (after hostOps1 (W4 m ρ c))) (Proc.devRef .tc main_v7) = _
  simp only [hostOps1, hostOps1_1, hostOps1_2]
  after_results_simp
theorem dst7 : W7 m ρ c (Proc.devRef .tc main_v8) = W4 m ρ c (Proc.devRef .tc main_v8) := by
  show after hostOps1_2 (after hostOps1_1 (after hostOps1 (W4 m ρ c))) (Proc.devRef .tc main_v8) = _
  simp only [hostOps1, hostOps1_1, hostOps1_2]
  after_results_simp
theorem norm7 : W7 m ρ c (Proc.devRef .tc main_v31) = W4 m ρ c (Proc.devRef .tc main_v31) := by
  show after hostOps1_2 (after hostOps1_1 (after hostOps1 (W4 m ρ c))) (Proc.devRef .tc main_v31) = _
  simp only [hostOps1, hostOps1_1, hostOps1_2]
  after_results_simp
theorem wgt1_7 : W7 m ρ c (Proc.devRef .tc main_arg4) = W4 m ρ c (Proc.devRef .tc main_arg4) := by
  show after hostOps1_2 (after hostOps1_1 (after hostOps1 (W4 m ρ c))) (Proc.devRef .tc main_arg4) = _
  simp only [hostOps1, hostOps1_1, hostOps1_2]
  after_results_simp

/-! ## The second region: a product; everything else as it was -/

theorem dense8 : W8 m ρ c (Proc.devRef .tc main_v51)
    = Host.dotGeneral (F := Ideal) (φ₁ := .f32) (φ₂ := .f32) Cert.ReferenceIdeal.dot_S100000x128_S128x64_S100000x64_1_0_0_1_n_n none (W7 m ρ c (Proc.devRef .tc main_v50)) (W7 m ρ c (Proc.devRef .tc main_arg4)) :=
  (W8_arr m ρ c 2).trans (Cert.KernelIdeal.Dense1.array_eq (V7 m ρ) c)

theorem src8 : W8 m ρ c (Proc.devRef .tc main_v7) = W7 m ρ c (Proc.devRef .tc main_v7) := W8_of_ne m ρ c main_v7 (by decide)
theorem dst8 : W8 m ρ c (Proc.devRef .tc main_v8) = W7 m ρ c (Proc.devRef .tc main_v8) := W8_of_ne m ρ c main_v8 (by decide)
theorem norm8 : W8 m ρ c (Proc.devRef .tc main_v31) = W7 m ρ c (Proc.devRef .tc main_v31) := W8_of_ne m ρ c main_v31 (by decide)

/-! ## After the second region: aggregate over the same edges, cut into the two halves -/

theorem out9_s : W9 m ρ c (Proc.devRef .tc main_v65)
    = Cert.Gcn.sourceHalf (F := Ideal) (Cert.Gcn.aggregate64 (F := Ideal) (W8 m ρ c (Proc.devRef .tc main_v7)) (W8 m ρ c (Proc.devRef .tc main_v8))
        (W8 m ρ c (Proc.devRef .tc main_v31)) (W8 m ρ c (Proc.devRef .tc main_v51))) := by
  show after hostOps2 (W8 m ρ c) (Proc.devRef .tc main_v65) = _
  simp only [hostOps2]
  after_results_simp
  rfl

theorem out9_t : W9 m ρ c (Proc.devRef .tc main_v66)
    = Cert.Gcn.targetHalf (F := Ideal) (Cert.Gcn.aggregate64 (F := Ideal) (W8 m ρ c (Proc.devRef .tc main_v7)) (W8 m ρ c (Proc.devRef .tc main_v8))
        (W8 m ρ c (Proc.devRef .tc main_v31)) (W8 m ρ c (Proc.devRef .tc main_v51))) := by
  show after hostOps2 (W8 m ρ c) (Proc.devRef .tc main_v66) = _
  simp only [hostOps2]
  after_results_simp
  rfl

/-! ## Put together -/

/-- The last layer's output before the cut, as the kernel computes it: the two-layer network of the argument arrays. -/
theorem last8 : Cert.Gcn.aggregate64 (F := Ideal) (W8 m ρ c (Proc.devRef .tc main_v7)) (W8 m ρ c (Proc.devRef .tc main_v8))
        (W8 m ρ c (Proc.devRef .tc main_v31)) (W8 m ρ c (Proc.devRef .tc main_v51))
    = Cert.Gcn.output (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [dense8, src8, dst8, norm8, hidden7, src7, dst7, norm7, wgt1_7, src4, dst4, norm4, wgt1_4, dense4, src3, dst3, norm3, wgt1_3]
  rfl

theorem result_s : W9 m ρ c (Proc.devRef .tc main_v65)
    = Cert.Gcn.sourceHalf (F := Ideal) (Cert.Gcn.output (F := Ideal) (m ((c : Thread nD τ).loc main_arg0)) (m ((c : Thread nD τ).loc main_arg1))
        (m ((c : Thread nD τ).loc main_arg2)) (m ((c : Thread nD τ).loc main_arg3)) (m ((c : Thread nD τ).loc main_arg4))) :=
  (out9_s m ρ c).trans (congrArg (Cert.Gcn.sourceHalf (F := Ideal)) (last8 m ρ c))

theorem result_t : W9 m ρ c (Proc.devRef .tc main_v66)
    = Cert.Gcn.targetHalf (F := Ideal) (Cert.Gcn.output (F := Ideal) (m ((c : Thread nD τ).loc main_arg0)) (m ((c : Thread nD τ).loc main_arg1))
        (m ((c : Thread nD τ).loc main_arg2)) (m ((c : Thread nD τ).loc main_arg3)) (m ((c : Thread nD τ).loc main_arg4))) :=
  (out9_t m ρ c).trans (congrArg (Cert.Gcn.targetHalf (F := Ideal)) (last8 m ρ c))

end Cert.KernelIdeal.Layers

end
-- ==== Proof.RefValue.lean ====
/-
  What the reference's two results are. Its run ends with each result at the composition of its 122 host operations
  applied to the arguments. That composition is the two-layer network: the reference builds the edge lists, the degree
  and the normalisation afresh in each layer, from the same edge array by the same operations, so both layers use the
  same three arrays — which is why one set of them serves both layers on the kernel's side.
-/
import proofs.«153630_j69526930588080_1_alg».proof.Proof.RefRun
import proofs.«153630_j69526930588080_1_alg».proof.Proof.Graph
import Idealize.ShloMosaic.PureOps.Ideal

set_option maxRecDepth 16384

noncomputable section

namespace Cert.ReferenceIdeal.Layers

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

set_option maxHeartbeats 4000000 in
theorem result_s : Cert.ReferenceIdeal.ValueP.res_main_v91 (F := Ideal) m c
    = Cert.Gcn.sourceHalf (F := Ideal) (Cert.Gcn.output (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  unfold Cert.ReferenceIdeal.ValueP.res_main_v91
  rfl

set_option maxHeartbeats 4000000 in
theorem result_t : Cert.ReferenceIdeal.ValueP.res_main_v92 (F := Ideal) m c
    = Cert.Gcn.targetHalf (F := Ideal) (Cert.Gcn.output (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  unfold Cert.ReferenceIdeal.ValueP.res_main_v92
  rfl

end Cert.ReferenceIdeal.Layers

end
-- ==== Proof.lean ====
/-
  A two-layer graph convolution on 100000 nodes and 700000 edges (the 600000 given ones and a self loop per node):
      layer(h, W)[v] = Σ_{e : d(e) = v} (h · W)[s(e)] · dinv(s(e)) · dinv(d(e)),      dinv = deg^(-1/2) where deg > 0, else 0,
  the first layer followed by max(·, 0), the result cut into its source half and its target half.
  The kernel computes each product h · W in a pipelined region, 5000 rows at a time, rounding both operands to bf16
  on the way in, and builds the edge lists and the normalisation once; the reference uses the host's dot_general and
  builds them again in each layer. On the extended reals the roundings are the identity, a product taken block of rows by
  block of rows is the product of the whole arrays, and the rebuilt edge arrays are the same arrays; every other
  operation is the same on both sides, in the same order. So both programs end with the same function of their
  arguments, whatever the arguments are: the precondition is not used.
  The ideal pass rewrote nothing in the kernel, so there is nothing to show for its idealization.
-/
import proofs.«153630_j69526930588080_1_alg».proof.Defs
import proofs.«153630_j69526930588080_1_alg».proof.Proof.Gen.Kernel
import proofs.«153630_j69526930588080_1_alg».proof.Proof.Gen.Kernel.Frame
import proofs.«153630_j69526930588080_1_alg».proof.Proof.Gen.KernelIdeal
import proofs.«153630_j69526930588080_1_alg».proof.Proof.Gen.KernelIdeal.Frame
import proofs.«153630_j69526930588080_1_alg».proof.Proof.Gen.ReferenceIdeal
import proofs.«153630_j69526930588080_1_alg».proof.Proof.Gen.Pre_finite_inputs
import proofs.«153630_j69526930588080_1_alg».proof.Proof.RefRun
import proofs.«153630_j69526930588080_1_alg».proof.Proof.KernelRun
import proofs.«153630_j69526930588080_1_alg».proof.Proof.KernelValue
import proofs.«153630_j69526930588080_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs: its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end at the two halves of the two-layer network of the (agreeing) arguments. -/
theorem algebraic : Cert.algebraic_KernelIdeal_ReferenceIdeal := by
  intro m ρ m' ρ' _ hagree
  refine ⟨fun c => Cert.Gcn.sourceHalf (F := Ideal) (Cert.Gcn.output (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    fun c => Cert.Gcn.targetHalf (F := Ideal) (Cert.Gcn.output (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.Layers.result_s m ρ c), (h c).2.1.trans (Cert.KernelIdeal.Layers.result_t m ρ c), (h c).2.2⟩)
      (Cert.KernelIdeal.Results.run (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.Layers.result_s, (hagree c).1, (hagree c).2.1, (hagree c).2.2.1, (hagree c).2.2.2.1, (hagree c).2.2.2.2]
    · rw [Cert.ReferenceIdeal.Layers.result_t, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
